-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S100000x128 .f32) (main_arg1 : IVec S2x3200000 32) (main_arg2 : FVec F S3200000 .f32) (main_arg3 : FVec F S128x16 .f32) (main_arg4 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S100000x16 : Shape := ⟨2, ![100000, 16]⟩
abbrev S10000x128 : Shape := ⟨2, ![10000, 128]⟩
abbrev S10000x16 : Shape := ⟨2, ![10000, 16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 65
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x16, .f32⟩
  | .hbm, ⟨4, _⟩ => ⟨S16, .f32⟩
  | .hbm, ⟨5, _⟩ => ⟨S100000x16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S100000, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16, .f32⟩
  | .local _ .vmem, ⟨8, _⟩ => ⟨S10000x16, .f32⟩
  | .local _ .vmem, ⟨9, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S10000x16 : S1x16.Broadcasts S10000x16
  shapeCasts_S10000x16_S10000x16 : S10000x16.ShapeCasts S10000x16
  dot_S10000x128_S128x16_S10000x16_1_0_0_1_n_n_wf : DotDims.WF S10000x128 S128x16 S10000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x16, .f32⟩
  | .hbm, ⟨4, _⟩ => ⟨S16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.GraphConv.lean ====
/-
  The graph convolution as one function of its inputs.

  Both programs compute   out = D^(-1/2) (A + I) D^(-1/2) (X W) + b   on a graph of 100000 nodes and 3200000 weighted
  edges: the edge list is extended by one self-loop of weight 1 per node; the degree of a node is the sum of the
  extended weights over the edges that END at it (a scatter-add); a node's normalising factor is the reciprocal square
  root of its degree where the degree is positive and 0 elsewhere; an edge's coefficient is the product of the factor
  at its source, its weight and the factor at its target; each edge carries the projected feature row H[source] scaled
  by its coefficient, and the rows are summed per target node (a gather, a product, a scatter-add); the bias row is
  added to every node's row.

  Everything after the projection H = X W depends on H only through that last gather, so the aggregation is a function
  `aggregate H edges weights`, stated here over the reference's own stages (the index and coefficient stages do not
  involve H at all). The reference's result is `aggregate (X W) edges weights + bias` by unfolding its last four stages.
-/
import proofs.«171196_j66675072303276_1_alg».proof.Proof.Gen.ReferenceIdeal.Read

noncomputable section

namespace Cert.GraphConv

open Cert.ReferenceIdeal Cert.ReferenceIdeal.Read Idealize.ShloMosaic

variable {F : FTy → Type} [FloatOps F]

/-- The aggregation over the extended edge list of the feature rows `h`: row `h[source e]` times the edge's symmetric
    normalisation coefficient, summed into row `target e`, from the zero array. The target indices (stage 44), the
    source indices wrapped into range (stage 38) and the coefficients broadcast along the feature axis (stage 41) are
    the reference's stages of the edge index and the edge weights alone. -/
def aggregate (h : (⟨S100000x16, .f32⟩ : BufTy).Contents (Elt F)) (ei : (⟨S2x3200000, .i32⟩ : BufTy).Contents (Elt F))
    (ew : (⟨S3200000, .f32⟩ : BufTy).Contents (Elt F)) : (⟨S100000x16, .f32⟩ : BufTy).Contents (Elt F) :=
  Host.scatterAdd scatter_S100000x16_S3300000x1_S3300000x16_1_0_0_1 (val_main_v43 (F := F)) (val_main_v44 (F := F) ei)
    (mulf (Host.gather gather_S100000x16_S3300000x1_S3300000x16_1_0_n_n_0_1_116 h (val_main_v38 (F := F) ei))
      (val_main_v41 (F := F) ei ew))

/-- The bias row added to every node's row. -/
def addBias (a : (⟨S100000x16, .f32⟩ : BufTy).Contents (Elt F)) (b : (⟨S16, .f32⟩ : BufTy).Contents (Elt F)) :
    (⟨S100000x16, .f32⟩ : BufTy).Contents (Elt F) :=
  addf a (val_main_v47 (F := F) b)

/-- The reference's result is the aggregation of its matrix product, plus the bias: its last four stages unfolded. -/
theorem reference_eq (x : (⟨S100000x128, .f32⟩ : BufTy).Contents (Elt F)) (ei : (⟨S2x3200000, .i32⟩ : BufTy).Contents (Elt F))
    (ew : (⟨S3200000, .f32⟩ : BufTy).Contents (Elt F)) (w : (⟨S128x16, .f32⟩ : BufTy).Contents (Elt F))
    (b : (⟨S16, .f32⟩ : BufTy).Contents (Elt F)) :
    val_main_v48 (F := F) x ei ew w b = addBias (aggregate (val_main_v32 (F := F) x w) ei ew) b := rfl

end Cert.GraphConv

end
-- ==== Proof.ResultRun.lean ====
/-
  The idealized kernel's run, with its result named.

  @main of the kernel is five segments: the projection region (a tall-skinny matrix product, ten row blocks), three
  stretches of host operations (the graph aggregation: degrees, normalisation, gather, scatter-add), and the bias
  region (ten row blocks again). The generated frame folds the buffer contents through these segments: the contents
  at the last boundary are the bias region's write-backs over the contents the third host stretch leaves. Here the
  same launch over the same segments is read at one more buffer: besides the five argument arrays, the result buffer
  ends holding what the bias region's ten write-backs leave in it.
-/
import proofs.«171196_j66675072303276_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer ends at the
    bias region's output array after its last write-back, taken over the contents the host stretches leave, and the
    five argument arrays end as launched. -/
theorem run : θ_run defs (onTc (τ := τ) (main (F := F))) ⟨m, fun _ => 0, ρ⟩ (fun r => ∀ c : Dev nD,
      r.2.mem ((c.tc : Thread nD τ).loc main_v46) = (dat1 (V4 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v46 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Result

end
-- ==== Proof.HostPart.lean ====
/-
  The kernel's host stretches compute the aggregation.

  Between its two regions the kernel's @main runs 58 host operations in three stretches (the second is the body of the
  outlined `where`). They are, operation for operation, the reference's operations other than its matrix product and
  its bias addition; the only difference is where the projected features come from: the reference gathers rows of its
  own `dot_general`, the kernel gathers rows of the buffer the projection region wrote. So from ANY buffer contents
  `W` at the first stretch's entry, the aggregated-features buffer ends at `aggregate` of `W`'s projected features,
  edge index and edge weights; and the bias argument's buffer, which no host operation writes, keeps its contents.
-/
import proofs.«171196_j66675072303276_1_alg».proof.Proof.Gen.KernelIdeal.Launch
import proofs.«171196_j66675072303276_1_alg».proof.Proof.GraphConv
import Idealize.ShloMosaic.Lib.StableHlo.Run

set_option maxRecDepth 16384

noncomputable section

namespace Cert.KernelIdeal.HostPart

open Cert.KernelIdeal Cert.KernelIdeal.Gen Idealize.ShloMosaic Idealize.ShloMosaic.TcCoe Idealize.SL.Sem
open Idealize.ShloMosaic.StableHlo

variable {F : FTy → Type} [FloatOps F]

set_option maxHeartbeats 4000000 in
/-- The three stretches, run from contents `W`, leave the aggregation of `W`'s projected features over `W`'s edge
    index and edge weights in the buffer the bias region reads. -/
theorem aggregated (W : Valuation τ sig (Elt F)) :
    after hostOps1_2 (after hostOps1_1 (after hostOps1 W)) (Proc.devRef .tc main_v45)
      = Cert.GraphConv.aggregate (F := F) (W (Proc.devRef .tc main_v0)) (W (Proc.devRef .tc main_arg1)) (W (Proc.devRef .tc main_arg2)) := by
  after_results_simp
  rfl

/-- No host operation writes the bias argument's buffer: it is as `W` has it when the bias region is entered. -/
theorem bias_kept (W : Valuation τ sig (Elt F)) :
    after hostOps1_2 (after hostOps1_1 (after hostOps1 W)) (Proc.devRef .tc main_arg4) = W (Proc.devRef .tc main_arg4) := by
  after_results_simp

end Cert.KernelIdeal.HostPart

end
-- ==== Proof.ProjRegion.lean ====
/-
  The projection region: ten row blocks of the matrix product X W.

  At grid point t the body loads rows 10000 t … 10000 t + 9999 of X (all 128 columns) and the whole of W, narrows both
  to bf16 (the identity on exact values), multiplies them into a zero accumulator and stores the 10000 × 16 block,
  which is written back to the same rows of the output. At exact values the product into a zero accumulator is, at row
  r and column j of the block, the sum over k < 128 of x[r, k] · w[k, j] — with x the block of X, that is the sum of
  X[10000 t + r, k] · W[k, j], which is the host's matrix product read at (10000 t + r, j). The ten blocks tile the
  100000 rows, so the output array ends holding the host's product of the arrays the region was entered with.
-/
import proofs.«171196_j66675072303276_1_alg».proof.Proof.Gen.KernelIdeal.Frame
import proofs.«171196_j66675072303276_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.ProjRegion

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero2 : (![0, 0] : Fin 2 → Nat) = fun _ => 0 := funext fun a => by fin_cases a <;> rfl

/-- The left operand's index for output index `y` and contraction index `k`: row of `y`, column `k`. -/
abbrev lrow (y : S10000x16.Idx) (k : Fin 128) : S10000x128.Idx := fun a => match a with
  | ⟨0, _⟩ => ⟨(y 0).val, (y 0).isLt⟩
  | ⟨1, _⟩ => ⟨k.val, k.isLt⟩
/-- The right operand's index: row `k`, column of `y`. -/
abbrev rcol (y : S10000x16.Idx) (k : Fin 128) : S128x16.Idx := fun a => match a with
  | ⟨0, _⟩ => ⟨k.val, k.isLt⟩
  | ⟨1, _⟩ => ⟨(y 1).val, (y 1).isLt⟩

theorem lhs_0 (y : S10000x16.Idx) (q : dot_S10000x128_S128x16_S10000x16_1_0_0_1_n_n.contr.Idx) : (dot_S10000x128_S128x16_S10000x16_1_0_0_1_n_n.lhsIdx y q 0).val = (y 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_1 (y : S10000x16.Idx) (q : dot_S10000x128_S128x16_S10000x16_1_0_0_1_n_n.contr.Idx) : (dot_S10000x128_S128x16_S10000x16_1_0_0_1_n_n.lhsIdx y q 1).val = (q ⟨0, by decide⟩).val :=
  dot_S10000x128_S128x16_S10000x16_1_0_0_1_n_n.lhsIdx_val_of_single rfl y q
theorem rhs_0 (y : S10000x16.Idx) (q : dot_S10000x128_S128x16_S10000x16_1_0_0_1_n_n.contr.Idx) : (dot_S10000x128_S128x16_S10000x16_1_0_0_1_n_n.rhsIdx y q 0).val = (q ⟨0, by decide⟩).val :=
  dot_S10000x128_S128x16_S10000x16_1_0_0_1_n_n.rhsIdx_val_of_single rfl y q
theorem rhs_1 (y : S10000x16.Idx) (q : dot_S10000x128_S128x16_S10000x16_1_0_0_1_n_n.contr.Idx) : (dot_S10000x128_S128x16_S10000x16_1_0_0_1_n_n.rhsIdx y q 1).val = (y 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The body's stored value at an index of the block: the narrowing to bf16 is the identity on exact values and the
    product into the zero accumulator is the plain sum over the 128 contracted positions. -/
theorem payload_apply (x : Vec Ideal S10000x128 .f32) (w : Vec Ideal S128x16 .f32) (y : S10000x16.Idx) :
    k0_pay1 (F := Ideal) x w y = ∑ k : Fin 128, x (lrow y k) * w (rcol y k) := by
  unfold k0_pay1
  refine (Ideal.matmul_constant_zero_apply dot_S10000x128_S128x16_S10000x16_1_0_0_1_n_n none (truncf .bf16 x bitsLt_bf16_f32) (truncf .bf16 w bitsLt_bf16_f32) y).trans ?_
  rw [← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx y ((ValueIdx.contrEquiv1 dot_S10000x128_S128x16_S10000x16_1_0_0_1_n_n 128 rfl rfl).symm k) = lrow y k := funext fun a => Fin.ext (by
    match a with
    | ⟨0, _⟩ => exact lhs_0 _ _
    | ⟨1, _⟩ => exact (lhs_1 _ _).trans hk)
  have er : dot_S10000x128_S128x16_S10000x16_1_0_0_1_n_n.rhsIdx y ((ValueIdx.contrEquiv1 dot_S10000x128_S128x16_S10000x16_1_0_0_1_n_n 128 rfl rfl).symm k) = rcol y k := funext fun a => Fin.ext (by
    match a with
    | ⟨0, _⟩ => exact (rhs_0 _ _).trans hk
    | ⟨1, _⟩ => exact rhs_1 _ _)
  show x (dot_S10000x128_S128x16_S10000x16_1_0_0_1_n_n.lhsIdx y ((ValueIdx.contrEquiv1 dot_S10000x128_S128x16_S10000x16_1_0_0_1_n_n 128 rfl rfl).symm k)) * w (dot_S10000x128_S128x16_S10000x16_1_0_0_1_n_n.rhsIdx y ((ValueIdx.contrEquiv1 dot_S10000x128_S128x16_S10000x16_1_0_0_1_n_n 128 rfl rfl).symm k)) = _
  rw [el, er]

/-- A product of two array reads depends only on the two indices read. -/
theorem mul_reads_congr (X : (⟨S100000x128, .f32⟩ : BufTy).Contents (Elt Ideal)) (W : (⟨S128x16, .f32⟩ : BufTy).Contents (Elt Ideal))
    (i i' : S100000x128.Idx) (l l' : S128x16.Idx) (hi : i = i') (hl : l = l') : X i * W l = X i' * W l' := by
  rw [hi, hl]

/-- The printed index maps over the ten points: X's block and the output's block are block `t` of the rows, all
    columns; W's window is always its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the host's matrix product of the two arrays as the region finds them. -/
theorem flushed_eq (c : Dev nD) (t : Fin cfg0.N) :
    (dat0 V c).flushed 2 t
      = ((cfg0.win 2).blk t).view.read (Elt Ideal) (Cert.ReferenceIdeal.Read.val_main_v32 (F := Ideal) (V c main_arg0) (V c main_arg3)) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x16) zero2]
  obtain ⟨e00, e01, e10, e11, e20, e21⟩ := index_facts t
  funext j
  have hj0 : (j 0).val < 10000 := (j 0).isLt
  have hj1 : (j 1).val < 16 := (j 1).isLt
  refine (payload_apply (iblk0 V c 0 t) (iblk0 V c 1 t) j).trans ?_
  refine Eq.trans ?_ (Cert.ReferenceIdeal.Read.val_main_v32_apply (V c main_arg0) (V c main_arg3) (((cfg0.win 2).blk t).view.emb j)).symm
  refine Finset.sum_congr rfl fun k _ => ?_
  have hk : k.val < 128 := k.isLt
  have hl : ((cfg0.win 0).blk t).view.emb (lrow j k) = Cert.ReferenceIdeal.Read.lidx_main_v32 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : ((cfg0.win 1).blk t).view.emb (rcol j k) = Cert.ReferenceIdeal.Read.ridx_main_v32 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  exact mul_reads_congr (V c main_arg0) (V c main_arg3) _ _ _ _ hl hr

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- Row `r` lies in the block of point `r / 10000`: the ten blocks cover the array. -/
theorem covered (i : S100000x16.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 16 := (i 1).isLt
  have ht : (i 0).val / 10000 < cfg0.N := by rw [hN]; omega
  refine ⟨⟨(i 0).val / 10000, ht⟩, flush0_2 _, ?_⟩
  obtain ⟨-, -, -, -, e20, e21⟩ := index_facts ⟨(i 0).val / 10000, ht⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, ht⟩ (1 : Fin 2) * 16 ≤ (i 1).val ∧ (i 1).val < win0_2.index ⟨(i 0).val / 10000, ht⟩ (1 : Fin 2) * 16 + 16
    rw [e21]; omega

/-- After its ten write-backs the output array holds the host's matrix product of X and W as the region found them. -/
theorem result_eq (c : Dev nD) :
    (dat0 V c).arrAt 2 cfg0.N = Cert.ReferenceIdeal.Read.val_main_v32 (F := Ideal) (V c main_arg0) (V c main_arg3) :=
  (dat0 V c).arrAt_eq_of_cover 2 _ (fun t _ => flushed_eq V c t) covered

end Cert.KernelIdeal.ProjRegion

end
-- ==== Proof.BiasRegion.lean ====
/-
  The bias region: ten row blocks, each the aggregated features' block plus the bias row.

  The region's grid has ten points; at point t the body loads rows 10000 t … 10000 t + 9999 of the aggregated features
  (all 16 columns) and the whole bias vector, broadcasts the bias along the rows, adds, and stores the block, which is
  written back to the same rows of the result array. So element (r, j) of what point t writes back is
  a[10000 t + r, j] + b[j], which is the array `addBias a b` read through the point's block; the ten blocks tile the
  100000 rows, so the result array ends holding `addBias a b`, for any contents `V` the region is entered with.
-/
import proofs.«171196_j66675072303276_1_alg».proof.Proof.Gen.KernelIdeal.Frame
import proofs.«171196_j66675072303276_1_alg».proof.Proof.GraphConv
import Idealize.ShloMosaic.Lib.Pipeline.Value
import Idealize.ShloMosaic.Lib.ValueIdx
import Idealize.ShloMosaic.Lib.ValueLayout

set_option maxRecDepth 16384

noncomputable section

namespace Cert.KernelIdeal.BiasRegion

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The body's stored value at row `p`, column `q` of the block: the loaded features there plus the bias at `q`
    (the two identity casts dropped, the bias read through its added unit axis and its broadcast along the rows). -/
theorem payload_apply (bv : Vec F S16 .f32) (a : Vec F S10000x16 .f32) (p : Fin 10000) (q : Fin 16) :
    k1_pay1 bv a (ix2 p q) = FloatOps.addf (a (ix2 p q)) (bv (ix1 q)) := by
  unfold k1_pay1
  show FloatOps.addf (shapeCast S10000x16 a shapeCasts_S10000x16_S10000x16 (ix2 p q))
      (broadcastTo S10000x16 (shapeCast S1x16 (shapeCast S1x16 bv shapeCasts_S16_S1x16) shapeCasts_S1x16_S1x16)
        broadcasts_S1x16_S10000x16 (ix2 p q)) = _
  rw [shapeCast_self, shapeCast_self, broadcastTo_1b_ab_apply, shapeCast_a_1a_apply]

/-- The same at an index given by its coordinates' values. -/
theorem payload_at (bv : Vec F S16 .f32) (a : Vec F S10000x16 .f32) (y : S10000x16.Idx) (k : S16.Idx)
    (hk : (k 0).val = (y 1).val) : k1_pay1 bv a y = FloatOps.addf (a y) (bv k) := by
  have hy : ∃ (p : Fin 10000) (q : Fin 16), y = ix2 p q := ⟨y 0, y 1, eq_ix2 y⟩
  have hk' : ∃ q' : Fin 16, k = ix1 q' := ⟨k 0, eq_ix1 k⟩
  obtain ⟨p, q, rfl⟩ := hy
  obtain ⟨q', rfl⟩ := hk'
  obtain rfl : q' = q := Fin.ext hk
  exact payload_apply bv a p q'

/-- The bias added to the features, read at an index: the features there plus the bias at the column. -/
theorem addBias_apply (a : (⟨Cert.ReferenceIdeal.S100000x16, .f32⟩ : BufTy).Contents (Elt F))
    (b : (⟨Cert.ReferenceIdeal.S16, .f32⟩ : BufTy).Contents (Elt F)) (i : Cert.ReferenceIdeal.S100000x16.Idx)
    (k : Cert.ReferenceIdeal.S16.Idx) (hk : (k 0).val = (i 1).val) :
    Cert.GraphConv.addBias a b i = FloatOps.addf (a i) (b k) := by
  show FloatOps.addf (a i) (Cert.ReferenceIdeal.Read.val_main_v47 b i) = _
  rw [Cert.ReferenceIdeal.Read.val_main_v47_apply, Cert.ReferenceIdeal.Read.val_main_v46_apply]
  refine congrArg (fun z => FloatOps.addf (a i) (b z)) (funext fun d => Fin.ext ?_)
  match d with
  | ⟨0, _⟩ => exact hk.symm

/-- The printed index maps over the ten points: the features' block and the result's block are block `t` of the rows,
    all columns; the bias window is always its one block. -/
theorem index_facts : ∀ t : Fin cfg1.N, win1_0.index t (0 : Fin 2) = t.val ∧ win1_0.index t (1 : Fin 2) = 0
    ∧ win1_1.index t (0 : Fin 1) = 0 ∧ win1_2.index t (0 : Fin 2) = t.val ∧ win1_2.index t (1 : Fin 2) = 0 :=
  (by decide +kernel : ∀ t : Fin grid1.N, _)

/-- What point `t` writes back is block `t` of the features plus the bias, as the region finds them. -/
theorem flushed_eq (c : Dev nD) (t : Fin cfg1.N) :
    (dat1 V c).flushed 2 t
      = ((cfg1.win 2).blk t).view.read (Elt F) (Cert.GraphConv.addBias (F := F) (V c main_v45) (V c main_arg4)) := by
  show (cfg1.win 2).cut (grid1.coords t) ((dat1 V c).after 2 t) = _
  rw [after1_2]
  unfold out1_2
  rw [View.canon_unit_zero zero2]
  simp only [View.ld_unit_zero (S := S10000x16) zero2, View.ld_unit_zero (S := S16) zero1]
  obtain ⟨e00, e01, e10, e20, e21⟩ := index_facts t
  funext j
  have hj0 : (j 0).val < 10000 := (j 0).isLt
  have hj1 : (j 1).val < 16 := (j 1).isLt
  refine (payload_at (iblk1 V c 1 t) (iblk1 V c 0 t) j (ix1 ⟨(j 1).val, hj1⟩) rfl).trans ?_
  refine Eq.trans ?_ (addBias_apply (V c main_v45) (V c main_arg4) (((cfg1.win 2).blk t).view.emb j)
    (((cfg1.win 1).blk t).view.emb (ix1 ⟨(j 1).val, hj1⟩)) ?_).symm
  · show FloatOps.addf (V c main_v45 (((cfg1.win 0).blk t).view.emb j)) (V c main_arg4 (((cfg1.win 1).blk t).view.emb (ix1 ⟨(j 1).val, hj1⟩)))
      = FloatOps.addf (V c main_v45 (((cfg1.win 2).blk t).view.emb j)) (V c main_arg4 (((cfg1.win 1).blk t).view.emb (ix1 ⟨(j 1).val, hj1⟩)))
    have h0 : ((cfg1.win 0).blk t).view.emb j = ((cfg1.win 2).blk t).view.emb j := by
      funext a; apply Fin.ext
      match a with
      | ⟨0, _⟩ => show win1_0.index t (0 : Fin 2) * 10000 + 1 * (j 0).val = win1_2.index t (0 : Fin 2) * 10000 + 1 * (j 0).val; omega
      | ⟨1, _⟩ => show win1_0.index t (1 : Fin 2) * 16 + 1 * (j 1).val = win1_2.index t (1 : Fin 2) * 16 + 1 * (j 1).val; omega
    rw [h0]
  · show win1_1.index t (0 : Fin 1) * 16 + 1 * (j 1).val = win1_2.index t (1 : Fin 2) * 16 + 1 * (j 1).val
    omega

/-- An index of the result array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v46).slice (win1_2.rect t)).set ↔ _
  rw [View.set_slice_whole, Rect.mem_set_unit]
  exact Iff.rfl

/-- Row `r` lies in the block of point `r / 10000`: the ten blocks cover the array. -/
theorem covered (i : S100000x16.Idx) : ∃ t : Fin cfg1.N, (cfg1.win 2).flush t = true ∧ i ∈ ((cfg1.win 2).blk t).view.set := by
  have hN : cfg1.N = 10 := N_1
  have hi0 : (i 0).val < 100000 := (i 0).isLt
  have hi1 : (i 1).val < 16 := (i 1).isLt
  have ht : (i 0).val / 10000 < cfg1.N := by rw [hN]; omega
  refine ⟨⟨(i 0).val / 10000, ht⟩, flush1_2 _, ?_⟩
  obtain ⟨-, -, -, e20, e21⟩ := index_facts ⟨(i 0).val / 10000, ht⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, ht⟩ (1 : Fin 2) * 16 ≤ (i 1).val ∧ (i 1).val < win1_2.index ⟨(i 0).val / 10000, ht⟩ (1 : Fin 2) * 16 + 16
    rw [e21]; omega

/-- After its ten write-backs the result array holds the features plus the bias, as the region found them. -/
theorem result_eq (c : Dev nD) :
    (dat1 V c).arrAt 2 cfg1.N = Cert.GraphConv.addBias (F := F) (V c main_v45) (V c main_arg4) :=
  (dat1 V c).arrAt_eq_of_cover 2 _ (fun t _ => flushed_eq V c t) covered

end Cert.KernelIdeal.BiasRegion

end
-- ==== Proof.lean ====
/-
  A graph convolution  out = D^(-1/2) (A + I) D^(-1/2) (X W) + b  computed two ways, equal over the extended reals.

  The kernel projects first — H = X W as a tiled matrix product over ten blocks of 10000 rows, with bf16-narrowed
  operands accumulated in f32 —, aggregates H over the self-looped, symmetrically normalised edge list on the host
  (a scatter-add for the degrees, a reciprocal square root guarded by the degree's sign, two gathers for the edge
  coefficients, a row gather of H, a product and a scatter-add), and adds the bias in a second tiled region. The
  reference runs the same host operations on its own `dot_general` and adds the broadcast bias on the host.

  At exact values the narrowing to bf16 is the identity and the tiled product into a zero accumulator is the plain
  sum over the contracted axis, so the projection region leaves exactly the host's matrix product (ProjRegion); the
  host stretches are the reference's operations applied to whatever the projection left (HostPart, over the function
  `aggregate` of GraphConv); the bias region leaves the aggregated rows plus the bias row (BiasRegion). No algebraic
  law beyond `0 + s = s` is used, so the inputs' finiteness is never opened. The kernel's run with its result named is
  ResultRun; the reference's run and its stages are its generated run and read-back modules; the three frames are the
  generated ones (the reference's is its run with the result dropped); the idealisation rewrote nothing, so it is
  preserved trivially.
-/
import proofs.«171196_j66675072303276_1_alg».proof.Defs
import proofs.«171196_j66675072303276_1_alg».proof.Proof.Gen.Kernel
import proofs.«171196_j66675072303276_1_alg».proof.Proof.Gen.Kernel.Skeleton
import proofs.«171196_j66675072303276_1_alg».proof.Proof.Gen.Kernel.Launch
import proofs.«171196_j66675072303276_1_alg».proof.Proof.Gen.Kernel.Points
import proofs.«171196_j66675072303276_1_alg».proof.Proof.Gen.Kernel.Frame
import proofs.«171196_j66675072303276_1_alg».proof.Proof.Gen.KernelIdeal
import proofs.«171196_j66675072303276_1_alg».proof.Proof.Gen.KernelIdeal.Skeleton
import proofs.«171196_j66675072303276_1_alg».proof.Proof.Gen.KernelIdeal.Launch
import proofs.«171196_j66675072303276_1_alg».proof.Proof.Gen.KernelIdeal.Points
import proofs.«171196_j66675072303276_1_alg».proof.Proof.Gen.KernelIdeal.Frame
import proofs.«171196_j66675072303276_1_alg».proof.Proof.Gen.ReferenceIdeal
import proofs.«171196_j66675072303276_1_alg».proof.Proof.Gen.Pre_finite_inputs
import proofs.«171196_j66675072303276_1_alg».proof.Proof.Gen.ReferenceIdeal.Run
import proofs.«171196_j66675072303276_1_alg».proof.Proof.Gen.ReferenceIdeal.Read
import proofs.«171196_j66675072303276_1_alg».proof.Proof.GraphConv
import proofs.«171196_j66675072303276_1_alg».proof.Proof.ResultRun
import proofs.«171196_j66675072303276_1_alg».proof.Proof.HostPart
import proofs.«171196_j66675072303276_1_alg».proof.Proof.ProjRegion
import proofs.«171196_j66675072303276_1_alg».proof.Proof.BiasRegion
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen

variable (m : (ℓ : Loc nD τ sig) → Buf (Elt Ideal) ℓ) (ρ : Dev nD → PrngReg)

/-- The projection region's output, as the host stretches find it, is the host's matrix product of the launched X and W. -/
theorem projected (c : Dev nD) :
    W1 m ρ c (Proc.devRef .tc main_v0)
      = Cert.ReferenceIdeal.Read.val_main_v32 (F := Ideal) (m ((c.tc : Thread nD τ).loc main_arg0)) (m ((c.tc : Thread nD τ).loc main_arg3)) :=
  (W1_arr m ρ c 2).trans (Cert.KernelIdeal.ProjRegion.result_eq (V0 m ρ) c)

/-- The bias region is entered with the aggregation of that product over the launched edge index and edge weights. -/
theorem aggregated (c : Dev nD) :
    V4 m ρ c main_v45
      = Cert.GraphConv.aggregate (F := Ideal)
          (Cert.ReferenceIdeal.Read.val_main_v32 (F := Ideal) (m ((c.tc : Thread nD τ).loc main_arg0)) (m ((c.tc : Thread nD τ).loc main_arg3)))
          (m ((c.tc : Thread nD τ).loc main_arg1)) (m ((c.tc : Thread nD τ).loc main_arg2)) := by
  refine (Cert.KernelIdeal.HostPart.aggregated (W1 m ρ c)).trans ?_
  rw [projected m ρ c, W1_of_ne m ρ c main_arg1 (by decide), W1_of_ne m ρ c main_arg2 (by decide)]

/-- … and with the launched bias. -/
theorem bias_entry (c : Dev nD) : V4 m ρ c main_arg4 = m ((c.tc : Thread nD τ).loc main_arg4) :=
  (Cert.KernelIdeal.HostPart.bias_kept (W1 m ρ c)).trans (W1_of_ne m ρ c main_arg4 (by decide))

/-- So the kernel's result array ends at the reference's last stage of the launched arguments. -/
theorem kernel_value (c : Dev nD) :
    (dat1 (V4 m ρ) c).arrAt 2 cfg1.N
      = Cert.ReferenceIdeal.Read.val_main_v48 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [Cert.KernelIdeal.BiasRegion.result_eq (V4 m ρ) c, aggregated m ρ c, bias_entry m ρ c]
  exact (Cert.GraphConv.reference_eq _ _ _ _ _).symm

end KernelValue

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the reference's last stage of the (agreeing) arguments in their result arrays. -/
theorem algebraic : Cert.algebraic_KernelIdeal_ReferenceIdeal := by
  intro m ρ m' ρ' _ hagree
  refine ⟨fun c => Cert.ReferenceIdeal.Read.val_main_v48 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_value m ρ c), (h c).2⟩)
      (Cert.KernelIdeal.Result.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v48_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
